-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8 : Shape := ⟨1, ![8]⟩
abbrev S1024x8 : Shape := ⟨2, ![1024, 8]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S4x4096x1024 .f32) (main_arg1 : FVec F S8 .f32) (main_arg2 : FVec F S1024x8 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Kernel.lean ====
abbrev S4x4096x1024 : Shape := ⟨3, ![4, 4096, 1024]⟩
abbrev S8 : Shape := ⟨1, ![8]⟩
abbrev S1024x8 : Shape := ⟨2, ![1024, 8]⟩
abbrev S1x8 : Shape := ⟨2, ![1, 8]⟩
abbrev S8x1024 : Shape := ⟨2, ![8, 1024]⟩
abbrev S1x2048x128 : Shape := ⟨3, ![1, 2048, 128]⟩
abbrev S1x2048x1024 : Shape := ⟨3, ![1, 2048, 1024]⟩
abbrev S1x2048x8 : Shape := ⟨3, ![1, 2048, 8]⟩
abbrev S2048x8 : Shape := ⟨2, ![2048, 8]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S1024x8, .f32⟩
  | .hbm, ⟨3, _⟩ => ⟨S1x8, .f32⟩
  | .hbm, ⟨4, _⟩ => ⟨S8x1024, .f32⟩
  | .hbm, ⟨5, _⟩ => ⟨S4x4096x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x8, .f32⟩
  | .local _ .vmem, ⟨3, _⟩ => ⟨S8x1024, .f32⟩
  | .local _ .vmem, ⟨4, _⟩ => ⟨S1x2048x1024, .f32⟩
  | .local _ .vmem, ⟨5, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8_S1x8 : S8.ShapeCasts S1x8
  transposes_S1024x8_S8x1024_1_0 : S1024x8.Transposes [1, 0] S8x1024
  inb_S1x2048x128_S1x2048x8_0_0_0 : ∀ a, (![0, 0, 0] : Fin 3 → Nat) a + S1x2048x8.size a ≤ S1x2048x128.size a
  h_S1x2048x8 : 0 < S1x2048x8.numel
  shapeCasts_S1x2048x8_S2048x8 : S1x2048x8.ShapeCasts S2048x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x8_S8x1024_S2048x1024_1_0_0_1_n_n_wf : DotDims.WF S2048x8 S8x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x4096x1024.size a
  hwx0_0 : ∀ i : grid0.Coords, EltTy.bits .f32 = 32 ∨ (Rect.block (s := S4x4096x1024) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x4096x1024.size a
  hwx0_3 : ∀ i : grid0.Coords, EltTy.bits .f32 = 32 ∨ (Rect.block (s := S4x4096x1024) S1x2048x1024.size (cc0_transform_3 i) (hinb0_3 i)).WholeWords (EltTy.packing .f32)

variable [Facts₀]

def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8 : Shape := ⟨1, ![8]⟩
abbrev S1024x8 : Shape := ⟨2, ![1024, 8]⟩
abbrev S4x4096x8 : Shape := ⟨3, ![4, 4096, 8]⟩
abbrev S1x1x8 : Shape := ⟨3, ![1, 1, 8]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S1024x8, .f32⟩
  | .hbm, ⟨3, _⟩ => ⟨S4x4096x8, .f32⟩
  | .hbm, ⟨4, _⟩ => ⟨S1x1x8, .f32⟩
  | .hbm, ⟨5, _⟩ => ⟨S4x4096x8, .f32⟩
  | .hbm, ⟨6, _⟩ => ⟨S4x4096x8, .f32⟩
  | .hbm, ⟨7, _⟩ => ⟨S4x4096x8, .f32⟩
  | .hbm, ⟨8, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  dot_S4x4096x8_S1024x8_S4x4096x1024_2_1_01_0_n_n_wf : DotDims.WF S4x4096x8 S1024x8 S4x4096x1024 [2] [1] [0, 1] [0] [] []

variable [Facts₀]

def dot_S4x4096x8_S1024x8_S4x4096x1024_2_1_01_0_n_n : DotDims S4x4096x8 S1024x8 S4x4096x1024 where
  lhsContracting := [2]
  rhsContracting := [1]
  lhsNonContracting := [0, 1]
  rhsNonContracting := [0]
  lhsBatch := []
  rhsBatch := []
  wf := dot_S4x4096x8_S1024x8_S4x4096x1024_2_1_01_0_n_n_wf

class Facts : Prop extends Facts₀ where

variable [Facts]
-- ==== Proof.CosProj.lean ====
/-
  The function both programs compute, on the extended reals.

  A token is a row of 1024 numbers, of which only the first eight are read. Feature `q` of token `(b, s)` is
  `cos (x[b, s, q] + θ[q])`, and entry `e` of the token's result is the inner product of its eight features with row `e`
  of `W`:

      out[b, s, e] = Σ_{q < 8} cos (x[b, s, q] + θ[q]) · W[e, q].

  Nothing here needs a finite input: the two programs form the same eight products and add them in the same order, so
  no law of the extended reals beyond reading each operation at an index is used.
-/
import Idealize.ShloMosaic.PureOps.Ideal
import Idealize.ShloMosaic.Lib.ValueIdx

noncomputable section

namespace Cert.CosProj

open Idealize.ShloMosaic Idealize.ShloMosaic.ValueIdx

/-- Column `q < 8` as one of a token's 1024 columns. -/
abbrev col (q : Fin 8) : Fin 1024 := ⟨q.val, Nat.lt_trans q.isLt (by decide)⟩

/-- `out[b, s, e] = Σ_q cos (x[b, s, q] + θ[q]) · W[e, q]`, the sum over the eight features in their order. -/
def cosProj (x : (⟨3, ![4, 4096, 1024]⟩ : Shape).Idx → EReal) (θ : (⟨1, ![8]⟩ : Shape).Idx → EReal)
    (W : (⟨2, ![1024, 8]⟩ : Shape).Idx → EReal) : (⟨3, ![4, 4096, 1024]⟩ : Shape).Idx → EReal :=
  fun i => ∑ q : Fin 8, Ideal.cos (x (ix3 (i 0) (i 1) (col q)) + θ (ix1 q)) * W (ix2 (i 2) q)

/-- The same at an index given by its coordinates. -/
theorem cosProj_apply (x : (⟨3, ![4, 4096, 1024]⟩ : Shape).Idx → EReal) (θ : (⟨1, ![8]⟩ : Shape).Idx → EReal)
    (W : (⟨2, ![1024, 8]⟩ : Shape).Idx → EReal) (b : Fin 4) (s : Fin 4096) (e : Fin 1024) :
    cosProj x θ W (ix3 b s e) = ∑ q : Fin 8, Ideal.cos (x (ix3 b s (col q)) + θ (ix1 q)) * W (ix2 e q) := rfl

end Cert.CosProj

end
-- ==== Proof.BodyValue.lean ====
/-
  The kernel body's one stored value, read at an index.

  The body loads the first eight columns of a block of 2048 tokens, the row of eight angles and the 8 × 1024 matrix,
  adds the angles to every token's columns, takes cosines, and multiplies the 2048 × 8 result by the matrix into a zero
  accumulator (the two roundings to bf16 on the way in are the identity on the extended reals). So entry `(r, e)` of
  what it stores is `Σ_q cos (x[r, q] + θ[q]) · M[q, e]`.
-/
import proofs.«112677_j65481071397690_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices: row `r` of the left operand against column `e` of the right -/

theorem lhs_row (j : S2048x1024.Idx) (k : dot_S2048x8_S8x1024_S2048x1024_1_0_0_1_n_n.contr.Idx) :
    (dot_S2048x8_S8x1024_S2048x1024_1_0_0_1_n_n.lhsIdx j k 0).val = (j 0).val := by
  unfold DotDims.lhsIdx
  rw [dif_neg (show ¬(0 : Fin S2048x8.rank) ∈ dot_S2048x8_S8x1024_S2048x1024_1_0_0_1_n_n.lhsBatch by decide),
    dif_pos (show (0 : Fin S2048x8.rank) ∈ dot_S2048x8_S8x1024_S2048x1024_1_0_0_1_n_n.lhsNonContracting by decide)]
  rfl

theorem lhs_col (j : S2048x1024.Idx) (k : dot_S2048x8_S8x1024_S2048x1024_1_0_0_1_n_n.contr.Idx) :
    (dot_S2048x8_S8x1024_S2048x1024_1_0_0_1_n_n.lhsIdx j k 1).val = (k ⟨0, by decide⟩).val :=
  dot_S2048x8_S8x1024_S2048x1024_1_0_0_1_n_n.lhsIdx_val_of_single rfl j k

theorem rhs_row (j : S2048x1024.Idx) (k : dot_S2048x8_S8x1024_S2048x1024_1_0_0_1_n_n.contr.Idx) :
    (dot_S2048x8_S8x1024_S2048x1024_1_0_0_1_n_n.rhsIdx j k 0).val = (k ⟨0, by decide⟩).val :=
  dot_S2048x8_S8x1024_S2048x1024_1_0_0_1_n_n.rhsIdx_val_of_single rfl j k

theorem rhs_col (j : S2048x1024.Idx) (k : dot_S2048x8_S8x1024_S2048x1024_1_0_0_1_n_n.contr.Idx) :
    (dot_S2048x8_S8x1024_S2048x1024_1_0_0_1_n_n.rhsIdx j k 1).val = (j 1).val := by
  unfold DotDims.rhsIdx
  rw [dif_neg (show ¬(1 : Fin S8x1024.rank) ∈ dot_S2048x8_S8x1024_S2048x1024_1_0_0_1_n_n.rhsBatch by decide),
    dif_pos (show (1 : Fin S8x1024.rank) ∈ dot_S2048x8_S8x1024_S2048x1024_1_0_0_1_n_n.rhsNonContracting by decide)]
  rfl

/-! ## The stored value at an index -/

/-- Entry `(u, r, e)` of what the body stores is the inner product of token `r`'s eight cosine features with column `e`
    of the matrix: the leading unit axis is dropped going in and put back coming out, the one row of angles is shared by
    all tokens, and the product into the zero accumulator is the plain sum over the contracted axis. -/
theorem stored_apply (x0 : Vec Ideal S1x2048x8 .f32) (x1 : Vec Ideal S1x8 .f32) (x2 : Vec Ideal S8x1024 .f32)
    (u : Fin 1) (r : Fin 2048) (e : Fin 1024) :
    k0_pay1 (F := Ideal) x0 x1 x2 (ix3 u r e)
      = ∑ q : Fin 8, Ideal.cos (x0 (ix3 (0 : Fin 1) r q) + x1 (ix2 (0 : Fin 1) q)) * x2 (ix2 q e) := by
  unfold k0_pay1
  refine (shapeCast_ab_1ab_apply _ _ u r e).trans ?_
  refine (Ideal.matmul_constant_zero_apply dot_S2048x8_S8x1024_S2048x1024_1_0_0_1_n_n none _ _ (ix2 r e)).trans ?_
  rw [← Equiv.sum_comp (contrEquiv1 dot_S2048x8_S8x1024_S2048x1024_1_0_0_1_n_n 8 rfl rfl).symm]
  refine Finset.sum_congr rfl fun q _ => ?_
  have hq := contrEquiv1_symm_val dot_S2048x8_S8x1024_S2048x1024_1_0_0_1_n_n 8 rfl rfl q
  have el : dot_S2048x8_S8x1024_S2048x1024_1_0_0_1_n_n.lhsIdx (ix2 r e)
      ((contrEquiv1 dot_S2048x8_S8x1024_S2048x1024_1_0_0_1_n_n 8 rfl rfl).symm q) = ix2 r q :=
    funext fun a => Fin.ext (by
      match a with
      | ⟨0, _⟩ => exact lhs_row _ _
      | ⟨1, _⟩ => exact (lhs_col _ _).trans hq)
  have er : dot_S2048x8_S8x1024_S2048x1024_1_0_0_1_n_n.rhsIdx (ix2 r e)
      ((contrEquiv1 dot_S2048x8_S8x1024_S2048x1024_1_0_0_1_n_n 8 rfl rfl).symm q) = ix2 q e :=
    funext fun a => Fin.ext (by
      match a with
      | ⟨0, _⟩ => exact (rhs_row _ _).trans hq
      | ⟨1, _⟩ => exact rhs_col _ _)
  rw [el, er]
  show Ideal.cos (shapeCast S2048x8 x0 shapeCasts_S1x2048x8_S2048x8 (ix2 r q)
        + broadcastTo S2048x8 (shapeCast S1x8 x1 shapeCasts_S1x8_S1x8) broadcasts_S1x8_S2048x8 (ix2 r q))
      * shapeCast S8x1024 x2 shapeCasts_S8x1024_S8x1024 (ix2 q e) = _
  rw [shapeCast_1ab_ab_apply, broadcastTo_1b_ab_apply, shapeCast_self, shapeCast_self]

end Cert.KernelIdeal.Body

end
-- ==== Proof.HostPrefix.lean ====
/-
  What the region finds in the two arrays the host prepares before the launch: the eight angles laid out as one row,
  and the matrix with its axes swapped, so that row `q` of the staged matrix is column `q` of `W`.
-/
import proofs.«112677_j65481071397690_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The staged row of angles is `θ` cast from eight entries to one row of eight. -/
theorem angles_eq (c : Dev nD) :
    (V m c main_v0 : S1x8.Idx → Elt F .f32)
      = shapeCast S1x8 (m ((c : Thread nD τ).loc main_arg1) : S8.Idx → Elt F .f32) shapeCasts_S8_S1x8 := by
  dsimp only [Gen.V, Gen.hostOps0]
  after_results
  rfl

/-- The staged matrix is `W` transposed. -/
theorem matrix_eq (c : Dev nD) :
    (V m c main_v1 : S8x1024.Idx → Elt F .f32)
      = transpose S8x1024 [1, 0] (m ((c : Thread nD τ).loc main_arg2) : S1024x8.Idx → Elt F .f32) transposes_S1024x8_S8x1024_1_0 := by
  dsimp only [Gen.V, Gen.hostOps0]
  after_results

/-- Entry `q` of the staged row is `θ[q]`. -/
theorem angles_apply (c : Dev nD) (u : Fin 1) (q : Fin 8) :
    (V m c main_v0 : S1x8.Idx → Elt F .f32) (ix2 u q) = (m ((c : Thread nD τ).loc main_arg1) : S8.Idx → Elt F .f32) (ix1 q) := by
  rw [angles_eq]
  exact shapeCast_a_1a_apply _ _ u q

/-- Entry `(q, e)` of the staged matrix is `W[e, q]`. -/
theorem matrix_apply (c : Dev nD) (q : Fin 8) (e : Fin 1024) :
    (V m c main_v1 : S8x1024.Idx → Elt F .f32) (ix2 q e) = (m ((c : Thread nD τ).loc main_arg2) : S1024x8.Idx → Elt F .f32) (ix2 e q) := by
  rw [matrix_eq]
  exact transpose_ix2_apply _ _ q e

end Cert.KernelIdeal.Prefix

end
-- ==== Proof.KernelArray.lean ====
/-
  The kernel's result array, index by index.

  The grid has a point for each of the 4 batches and each half (2048 tokens) of a batch's 4096 tokens. At a point the
  pipeline stages the first 128 columns of that half's tokens (the body reads the first eight), the row of angles and the
  transposed matrix (both whole, at every point), and writes the body's 2048 × 1024 result back as that half's rows of
  the output. So what a point writes back is its block of `cosProj x θ W`; the eight blocks tile the output; the output
  ends as `cosProj x θ W`.
-/
import proofs.«112677_j65481071397690_2_alg».proof.Proof.Gen.KernelIdeal.Value
import proofs.«112677_j65481071397690_2_alg».proof.Proof.CosProj
import proofs.«112677_j65481071397690_2_alg».proof.Proof.BodyValue
import proofs.«112677_j65481071397690_2_alg».proof.Proof.HostPrefix
import Idealize.ShloMosaic.Lib.Pipeline.Value
import Idealize.ShloMosaic.Lib.ValueIdx

noncomputable section

namespace Cert.KernelIdeal.Array

open Cert.KernelIdeal Cert.KernelIdeal.Gen Cert.KernelIdeal.Value Cert.CosProj
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Where each window's block sits at a grid point -/

/-- Decided over the eight points: the token window moves with the output window along the batch and token axes and
    stays at the first 128 columns; the output's blocks span all 1024 columns; the angles and the matrix are staged
    whole; and the output's block indices range over 4 batches × 2 halves. -/
theorem block_indices : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch, half) is some point's output block. -/
theorem block_onto : ∀ (q0 : Fin 4) (q1 : Fin 2), ∃ t : Fin cfg0.N, win0_3.index t = ![q0.val, q1.val, 0] :=
  (by decide +kernel : ∀ (q0 : Fin 4) (q1 : Fin 2), ∃ t : Fin grid0.N, win0_3.index t = ![q0.val, q1.val, 0])

/-! ## The input blocks read at an index -/

/-- An entry of the staged token block is the entry of `x` at the block's offset plus the entry's place in the block. -/
theorem tokens_apply (c : Dev nD) (t : Fin cfg0.N) (y : S1x2048x128.Idx) (b : Fin 4) (s : Fin 4096) (k : Fin 1024)
    (h0 : b.val = win0_0.index t (0 : Fin 3) * 1 + (y 0).val)
    (h1 : s.val = win0_0.index t (1 : Fin 3) * 2048 + (y 1).val)
    (h2 : k.val = win0_0.index t (2 : Fin 3) * 128 + (y 2).val) :
    (iblk m c 0 t : Vec Ideal S1x2048x128 .f32) y
      = (m ((c : Thread nD τ).loc main_arg0) : S4x4096x1024.Idx → EReal) (ix3 b s k) := by
  unfold iblk
  rw [View.read_apply]
  show V m c main_arg0 _ = _
  rw [V_main_arg0]
  refine congrArg (m ((c : Thread nD τ).loc main_arg0) : S4x4096x1024.Idx → EReal) (funext fun a => Fin.ext ?_)
  match a with
  | ⟨0, _⟩ => show win0_0.index t (0 : Fin 3) * 1 + 1 * (y 0).val = b.val; omega
  | ⟨1, _⟩ => show win0_0.index t (1 : Fin 3) * 2048 + 1 * (y 1).val = s.val; omega
  | ⟨2, _⟩ => show win0_0.index t (2 : Fin 3) * 128 + 1 * (y 2).val = k.val; omega

/-- The staged row of angles, at every point, is the whole row the host prepared. -/
theorem angles_blk_apply (c : Dev nD) (t : Fin cfg0.N) (u : Fin 1) (q : Fin 8) :
    (iblk m c 1 t : Vec Ideal S1x8 .f32) (ix2 u q) = (V m c main_v0 : S1x8.Idx → EReal) (ix2 u q) := by
  obtain ⟨-, -, -, -, e4, e5, -, -⟩ := block_indices t
  unfold iblk
  rw [View.read_apply]
  show V m c main_v0 _ = _
  refine congrArg (V m c main_v0 : S1x8.Idx → EReal) (funext fun a => Fin.ext ?_)
  match a with
  | ⟨0, _⟩ => show win0_1.index t (0 : Fin 2) * 1 + 1 * u.val = u.val; omega
  | ⟨1, _⟩ => show win0_1.index t (1 : Fin 2) * 8 + 1 * q.val = q.val; omega

/-- The staged matrix, at every point, is the whole transposed matrix the host prepared. -/
theorem matrix_blk_apply (c : Dev nD) (t : Fin cfg0.N) (q : Fin 8) (e : Fin 1024) :
    (iblk m c 2 t : Vec Ideal S8x1024 .f32) (ix2 q e) = (V m c main_v1 : S8x1024.Idx → EReal) (ix2 q e) := by
  obtain ⟨-, -, -, -, -, -, e6, e7⟩ := block_indices t
  unfold iblk
  rw [View.read_apply]
  show V m c main_v1 _ = _
  refine congrArg (V m c main_v1 : S8x1024.Idx → EReal) (funext fun a => Fin.ext ?_)
  match a with
  | ⟨0, _⟩ => show win0_2.index t (0 : Fin 2) * 8 + 1 * q.val = q.val; omega
  | ⟨1, _⟩ => show win0_2.index t (1 : Fin 2) * 1024 + 1 * e.val = e.val; omega

/-! ## What a point writes back -/

/-- The body's stored value at place `y` of the output block, when `y` sits at index `i` of the output array, is
    `cosProj x θ W` at `i`: the token block's rows are `x`'s rows at the same offset, its first eight columns are `x`'s
    first eight, the angles are `θ` and the matrix's row `q` is `W`'s column `q`. -/
theorem stored_at (c : Dev nD) (t : Fin cfg0.N) (y : S1x2048x1024.Idx) (i : S4x4096x1024.Idx)
    (h0 : (i 0).val = win0_3.index t (0 : Fin 3) * 1 + (y 0).val)
    (h1 : (i 1).val = win0_3.index t (1 : Fin 3) * 2048 + (y 1).val)
    (h2 : (i 2).val = win0_3.index t (2 : Fin 3) * 1024 + (y 2).val) :
    k0_pay1 (F := Ideal) (View.ld (iblk m c 0 t) r0_0) (iblk m c 1 t) (iblk m c 2 t) y
      = cosProj (m ((c : Thread nD τ).loc main_arg0)) (m ((c : Thread nD τ).loc main_arg1))
          (m ((c : Thread nD τ).loc main_arg2)) i := by
  obtain ⟨u, r, e, rfl⟩ : ∃ (u : Fin 1) (r : Fin 2048) (e : Fin 1024), y = ix3 u r e := ⟨y 0, y 1, y 2, eq_ix3 y⟩
  obtain ⟨b, s, e', rfl⟩ : ∃ (b : Fin 4) (s : Fin 4096) (e' : Fin 1024), i = ix3 b s e' := ⟨i 0, i 1, i 2, eq_ix3 i⟩
  obtain ⟨e0, e1, e2, e3, -, -, -, -⟩ := block_indices t
  have hb : b.val = win0_3.index t (0 : Fin 3) * 1 + u.val := h0
  have hs : s.val = win0_3.index t (1 : Fin 3) * 2048 + r.val := h1
  have he : e'.val = win0_3.index t (2 : Fin 3) * 1024 + e.val := h2
  have hu : u.val = 0 := by omega
  obtain rfl : e = e' := Fin.ext (by omega)
  refine (Body.stored_apply _ _ _ u r e).trans ?_
  rw [cosProj_apply]
  refine Finset.sum_congr rfl fun q _ => ?_
  have hx : View.ld (iblk m c 0 t : Vec Ideal S1x2048x128 .f32) r0_0 (ix3 (0 : Fin 1) r q)
      = (m ((c : Thread nD τ).loc main_arg0) : S4x4096x1024.Idx → EReal) (ix3 b s (col q)) := by
    show (iblk m c 0 t : Vec Ideal S1x2048x128 .f32) (r0_0.idx (ix3 (0 : Fin 1) r q)) = _
    refine tokens_apply m c t _ b s (col q) ?_ ?_ ?_
    · show b.val = win0_0.index t (0 : Fin 3) * 1 + (0 + 1 * 0); omega
    · show s.val = win0_0.index t (1 : Fin 3) * 2048 + (0 + 1 * r.val); omega
    · show q.val = win0_0.index t (2 : Fin 3) * 128 + (0 + 1 * q.val); omega
  have hθ : (iblk m c 1 t : Vec Ideal S1x8 .f32) (ix2 (0 : Fin 1) q)
      = (m ((c : Thread nD τ).loc main_arg1) : S8.Idx → EReal) (ix1 q) :=
    (angles_blk_apply m c t 0 q).trans (Prefix.angles_apply m c 0 q)
  have hW : (iblk m c 2 t : Vec Ideal S8x1024 .f32) (ix2 q e)
      = (m ((c : Thread nD τ).loc main_arg2) : S1024x8.Idx → EReal) (ix2 e q) :=
    (matrix_blk_apply m c t q e).trans (Prefix.matrix_apply m c q e)
  rw [hx, hθ, hW]

/-- WHAT POINT `t` WRITES BACK is its block of `cosProj x θ W`. -/
theorem flushed_eq (c : Dev nD) (t : Fin cfg0.N) :
    (dats m 0 c).flushed 3 t = ((cfg0.win 3).blk t).view.read (Elt Ideal)
      (cosProj (m ((c : Thread nD τ).loc main_arg0)) (m ((c : Thread nD τ).loc main_arg1))
        (m ((c : Thread nD τ).loc main_arg2))) := by
  rw [flushed3]
  unfold out0_3
  rw [View.canon_unit_zero zeros3]
  simp only [View.ld_unit_zero (S := S1x8) zeros2, View.ld_unit_zero (S := S8x1024) zeros2]
  funext j
  show k0_pay1 (F := Ideal) (View.ld (iblk m c 0 t) r0_0) (iblk m c 1 t) (iblk m c 2 t) ((cfg0.win 3).xinj (grid0.coords t) j)
    = cosProj (m ((c : Thread nD τ).loc main_arg0)) (m ((c : Thread nD τ).loc main_arg1))
        (m ((c : Thread nD τ).loc main_arg2)) (((cfg0.win 3).blk t).view.emb j)
  refine stored_at m c t _ _ ?_ ?_ ?_
  · show win0_3.index t (0 : Fin 3) * 1 + 1 * (j 0).val = win0_3.index t (0 : Fin 3) * 1 + (j 0).val; omega
  · show win0_3.index t (1 : Fin 3) * 2048 + 1 * (j 1).val = win0_3.index t (1 : Fin 3) * 2048 + (j 1).val; omega
  · show win0_3.index t (2 : Fin 3) * 1024 + 1 * (j 2).val = win0_3.index t (2 : Fin 3) * 1024 + (j 2).val; omega

/-! ## The blocks tile the output -/

/-- An index of the output is in point `t`'s block iff each coordinate is in the block's range on its axis. -/
theorem mem_blk (t : Fin cfg0.N) (i : S4x4096x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v2).slice (win0_3.rect t)).set ↔ _
  rw [View.set_slice_whole, Rect.mem_set_unit]
  exact Iff.rfl

/-- Token `s` of batch `b` is in the block of the point at batch `b`, half `s / 2048`. -/
theorem covered (i : S4x4096x1024.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 1024 := (i 2).isLt
  obtain ⟨t, ht⟩ := block_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 1024 ≤ (i 2).val ∧ (i 2).val < win0_3.index t (2 : Fin 3) * 1024 + 1024; omega

/-! ## The array after the run, and the run -/

/-- The output array ends holding `cosProj x θ W`. -/
theorem final (c : Dev nD) :
    (dats m 0 c).arrAt 3 cfg0.N = cosProj (m ((c : Thread nD τ).loc main_arg0)) (m ((c : Thread nD τ).loc main_arg1))
      (m ((c : Thread nD τ).loc main_arg2)) :=
  (dats m 0 c).arrAt_eq_of_cover 3 _ (fun t _ => flushed_eq m c t) covered

/-- Every weakly fair execution of the kernel's program terminates with the output at `cosProj x θ W` and the arguments
    unchanged. -/
theorem run : θ_run defs (onTc (τ := τ) (main (F := Ideal))) ⟨m, fun _ => 0, ρ⟩ fun r => ∀ c : Dev nD,
      r.2.mem ((c : Thread nD τ).loc main_v2) = cosProj (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Array

end
-- ==== Proof.ReferenceValue.lean ====
/-
  The reference's result, index by index.

  The reference slices the first eight columns of every token, adds the angles (broadcast over batches and tokens),
  takes cosines, and contracts the eight features against `W`'s second axis. Reading each of its six operations at an
  index gives `Σ_q cos (x[b, s, q] + θ[q]) · W[e, q]`, the eight terms in the order of `q`: `cosProj x θ W`.
-/
import proofs.«112677_j65481071397690_2_alg».proof.Proof.Gen.ReferenceIdeal.Read
import proofs.«112677_j65481071397690_2_alg».proof.Proof.CosProj
import Idealize.ShloMosaic.Lib.ValueIdx

noncomputable section

namespace Cert.ReferenceIdeal.RefValue

open Cert.ReferenceIdeal Cert.ReferenceIdeal.Gen Cert.ReferenceIdeal.Read Cert.CosProj
open Idealize.ShloMosaic Idealize.ShloMosaic.ValueIdx

/-- The last stage of the reference, as a function of the three arguments, is `cosProj`. -/
theorem result_eq (x : (⟨S4x4096x1024, .f32⟩ : BufTy).Contents (Elt Ideal)) (θ : (⟨S8, .f32⟩ : BufTy).Contents (Elt Ideal))
    (W : (⟨S1024x8, .f32⟩ : BufTy).Contents (Elt Ideal)) :
    val_main_v5 (F := Ideal) x θ W = cosProj x θ W := by
  funext i
  obtain ⟨b, s, e, rfl⟩ : ∃ (b : Fin 4) (s : Fin 4096) (e : Fin 1024), i = ix3 b s e := ⟨i 0, i 1, i 2, eq_ix3 i⟩
  rw [val_main_v5_apply, cosProj_apply]
  refine Finset.sum_congr rfl fun q _ => ?_
  rw [val_main_v4_apply, val_main_v3_apply, val_main_v0_apply, val_main_v2_apply, val_main_v1_apply]
  have e0 : idx_main_v0 (lidx_main_v5 (ix3 b s e) q) = ix3 b s (col q) :=
    funext fun a => Fin.ext (by match a with | ⟨0, _⟩ => rfl | ⟨1, _⟩ => rfl | ⟨2, _⟩ => rfl)
  have e1 : idx_main_v1 (idx_main_v2 (lidx_main_v5 (ix3 b s e) q)) = ix1 q :=
    funext fun a => Fin.ext (by match a with | ⟨0, _⟩ => rfl)
  have e2 : ridx_main_v5 (ix3 b s e) q = ix2 e q :=
    funext fun a => Fin.ext (by match a with | ⟨0, _⟩ => rfl | ⟨1, _⟩ => rfl)
  rw [e0, e1, e2]
  rfl

end Cert.ReferenceIdeal.RefValue

end
-- ==== Proof.lean ====
/-
  A tiled kernel for `out[b, s, e] = Σ_{q < 8} cos (x[b, s, q] + θ[q]) · W[e, q]` (x : [4, 4096, 1024], θ : [8],
  W : [1024, 8]) against the same formula written with a slice, a broadcast, a cosine and a `dot_general`.

  On the extended reals both programs compute the one function `Cert.CosProj.cosProj x θ W`:
  • the kernel, point by point: each of its 4 × 2 grid points stages 2048 tokens' first 128 columns, reads the first eight,
    adds the angles, takes cosines and multiplies by the transposed matrix into a zero accumulator (its roundings to
    bf16 are the identity on the extended reals); the eight written blocks tile the output (`Proof/BodyValue.lean`,
    `Proof/HostPrefix.lean`, `Proof/KernelArray.lean`);
  • the reference, operation by operation (`Proof/ReferenceValue.lean`).
  The two sums have the same eight terms in the same order, so no finiteness of the inputs is used. The three frame
  claims are the generated frame runs; the idealization rewrote nothing, so `preserves` is `True`.
-/
import proofs.«112677_j65481071397690_2_alg».proof.Defs
import proofs.«112677_j65481071397690_2_alg».proof.Proof.Gen.Kernel
import proofs.«112677_j65481071397690_2_alg».proof.Proof.Gen.Kernel.Frame
import proofs.«112677_j65481071397690_2_alg».proof.Proof.Gen.KernelIdeal
import proofs.«112677_j65481071397690_2_alg».proof.Proof.Gen.KernelIdeal.Frame
import proofs.«112677_j65481071397690_2_alg».proof.Proof.Gen.KernelIdeal.Value
import proofs.«112677_j65481071397690_2_alg».proof.Proof.Gen.ReferenceIdeal
import proofs.«112677_j65481071397690_2_alg».proof.Proof.Gen.ReferenceIdeal.Run
import proofs.«112677_j65481071397690_2_alg».proof.Proof.Gen.ReferenceIdeal.Read
import proofs.«112677_j65481071397690_2_alg».proof.Proof.Gen.Pre_finite_inputs
import proofs.«112677_j65481071397690_2_alg».proof.Proof.CosProj
import proofs.«112677_j65481071397690_2_alg».proof.Proof.KernelArray
import proofs.«112677_j65481071397690_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, `θ` and `W`, the kernel's output array and the reference's result both end at
    `cosProj x θ W`. -/
theorem algebraic : Cert.algebraic_KernelIdeal_ReferenceIdeal := by
  intro m ρ m' ρ' _ hagree
  refine ⟨fun c => Cert.CosProj.cosProj
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
